-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128x64 : Shape := ⟨2, ![128, 64]⟩
abbrev S50001 : Shape := ⟨1, ![50001]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128x128 .f32) (main_arg3 : FVec F S128x64 .f32) (main_arg4 : IVec S50001 32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128x64 : Shape := ⟨2, ![128, 64]⟩
abbrev S50001 : Shape := ⟨1, ![50001]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S5000 : Shape := ⟨1, ![5000]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩

abbrev nBuf : Space → Nat
  | .hbm => 52
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128x64, .f32⟩
  | .hbm, ⟨4, _⟩ => ⟨S50001, .i32⟩
  | .hbm, ⟨5, _⟩ => ⟨S800000, .i32⟩
  | .hbm, ⟨6, _⟩ => ⟨S800000, .i32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x128, .f32⟩
  | .hbm, ⟨37, _⟩ => ⟨S50000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg1_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem1_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  reduces_S5000x64_S5000 : S5000x64.Reduces [1] S5000
  broadcasts_S5000x1_S5000x64 : S5000x1.Broadcasts S5000x64
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v11) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v22) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S5000x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v23) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v34) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S5000x64.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128x64 : Shape := ⟨2, ![128, 64]⟩
abbrev S50001 : Shape := ⟨1, ![50001]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S800000x64 : Shape := ⟨2, ![800000, 64]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128x64, .f32⟩
  | .hbm, ⟨4, _⟩ => ⟨S50001, .i32⟩
  | .hbm, ⟨5, _⟩ => ⟨S800000, .i32⟩
  | .hbm, ⟨6, _⟩ => ⟨S800000, .i32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S50000x1, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S50000, .f32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000, .f32⟩
  | .hbm, ⟨72, _⟩ => ⟨S50000x1, .f32⟩
  | .hbm, ⟨73, _⟩ => ⟨S_, .f32⟩
  | .hbm, ⟨74, _⟩ => ⟨S50000x1, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x1, .f32⟩
  | .hbm, ⟨80, _⟩ => ⟨S50000x1, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x64, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x64, .f32⟩
  | .hbm, ⟨97, _⟩ => ⟨S_, .f32⟩
  | .hbm, ⟨98, _⟩ => ⟨S50000x64, .f32⟩
  | .hbm, ⟨99, _⟩ => ⟨S800000x1, .i32⟩
  | .hbm, ⟨100, _⟩ => ⟨S50000x64, .f32⟩
  | .hbm, ⟨101, _⟩ => ⟨S_, .f32⟩
  | .hbm, ⟨102, _⟩ => ⟨S50000, .f32⟩
  | .hbm, ⟨103, _⟩ => ⟨S50000x1, .f32⟩
  | .hbm, ⟨104, _⟩ => ⟨S_, .f32⟩
  | .hbm, ⟨105, _⟩ => ⟨S50000x1, .f32⟩
  | .hbm, ⟨106, _⟩ => ⟨S50000x1, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000, .f32⟩
  | .hbm, ⟨112, _⟩ => ⟨S50000x1, .f32⟩
  | .hbm, ⟨113, _⟩ => ⟨S_, .f32⟩
  | .hbm, ⟨114, _⟩ => ⟨S50000x1, .f32⟩
  | .hbm, ⟨115, _⟩ => ⟨S50000x1, .f32⟩
  | .hbm, ⟨116, _⟩ => ⟨S50000x64, .f32⟩
  | .hbm, ⟨117, _⟩ => ⟨S50000x64, .f32⟩
  | .hbm, ⟨118, _⟩ => ⟨S_, .f32⟩
  | .hbm, ⟨119, _⟩ => ⟨S50000x1, .f32⟩
  | .hbm, ⟨120, _⟩ => ⟨S50000x1, .f32⟩
  | .hbm, ⟨121, _⟩ => ⟨S50000x1, .f32⟩
  | .hbm, ⟨122, _⟩ => ⟨S50000x64, .f32⟩
  | .hbm, ⟨123, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_c_15 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_cst_18 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_19 : Ref sig .tc := ⟨.hbm, 110, rfl⟩
abbrev main_v78 : Ref sig .tc := ⟨.hbm, 111, rfl⟩
abbrev main_v79 : Ref sig .tc := ⟨.hbm, 112, rfl⟩
abbrev main_cst_20 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_21 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x64 : S_.BroadcastsInDim S50000x64 (![] : Fin 0 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel program's run with its result named.  Every weakly fair execution of @main terminates, nothing
  faulting, and the final memory holds, at the result buffer, what the last region's write-backs leave there — the
  last entry of the chain of buffer contents that follows @main segment by segment — and at each argument what was
  launched.  The frame alone forgets the result; this statement keeps it, read off the same chain.
-/
import proofs.«134028_j33440615366817_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over @main's nine segments; the last thread state holds every unscoped buffer at the last boundary's
    contents, and the final memory is read against it at the result and at each argument. -/
theorem run_named : θ_run defs (onTc (τ := τ) (main (F := F))) ⟨m, fun _ => 0, ρ⟩ (fun r => ∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Hand

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.LibRowNorm.lean ====
/-
  Layer normalization of the rows of an [a, n] array, read at one entry, on the extended reals.

  For a row x(r, ·) of n numbers let μ = (∑ₖ x(r, k)) / N and σ² = (∑ₖ (x(r, k) − μ)²) / N, the divisor N and the
  constant ε given by their f32 words.  The normalized entry is (x(r, c) − μ) · rsqrt(σ² + ε), optionally followed by a
  maximum with zero.  Entry (r, c) depends on row r only.

  Two spellings of the same computation are read here at an entry and shown to be that formula of the row:
  the vector unit's (a lane sum with a trailing unit axis restored by a shape cast, scalars splat, the [a, 1] column
  spread over [a, n] by a vector broadcast, `math.rsqrt`) and the host's (a `reduce` by addition from a zero
  initial value, every re-layout a `broadcast_in_dim`, `divide`, `rsqrt`).  Because both are the same function of
  one row, a row tile normalized on its own holds the same numbers as the whole array normalized at once.
-/
import Idealize.ShloMosaic.PureOps.Ideal.Laws
import Idealize.ShloMosaic.Lib.ValueIdx
import Idealize.ShloMosaic.Lib.IdealHost
import Idealize.ShloMosaic.Lib.Pipeline.Value
import proofs.«134028_j33440615366817_1_alg».proof.Proof.LibLaneSums
import proofs.«134028_j33440615366817_1_alg».proof.Proof.LibUnitAxes

noncomputable section

namespace Cert.LibRowNorm

open Idealize.ShloMosaic Idealize.ShloMosaic.ValueIdx

/-! ## The row-local formulas -/

/-- The mean of a row, the divisor given by its f32 word. -/
def rowMean {n : ℕ} (nw : BitVec 32) (row : Fin n → EReal) : EReal :=
  Ideal.div (∑ k : Fin n, row k) (Ideal.ofBits .f32 nw)

/-- The reciprocal standard deviation of a row: rsqrt of the mean squared deviation plus ε. -/
def rowInv {n : ℕ} (nw ew : BitVec 32) (row : Fin n → EReal) : EReal :=
  Ideal.rsqrt (Ideal.div (∑ k : Fin n, (row k - rowMean nw row) * (row k - rowMean nw row)) (Ideal.ofBits .f32 nw)
    + Ideal.ofBits .f32 ew)

/-- The normalized row at column c. -/
def lnRow {n : ℕ} (nw ew : BitVec 32) (row : Fin n → EReal) (c : Fin n) : EReal :=
  (row c - rowMean nw row) * rowInv nw ew row

/-- The normalized row at column c, then the maximum with the f32 word of zero. -/
def lnReluRow {n : ℕ} (nw ew : BitVec 32) (row : Fin n → EReal) (c : Fin n) : EReal :=
  max (lnRow nw ew row c) (Ideal.ofBits .f32 0x00000000#32)

/-! ## The vector unit's spelling -/

section Vector

variable {a n : ℕ} (nw ew : BitVec 32)
  (hr : (⟨2, ![a, n]⟩ : Shape).Reduces [1] ⟨1, ![a]⟩)
  (hs : (⟨1, ![a]⟩ : Shape).ShapeCasts ⟨2, ![a, 1]⟩)
  (hb : (⟨2, ![a, 1]⟩ : Shape).Broadcasts ⟨2, ![a, n]⟩)

/-- The column of row sums over the splat divisor. -/
def vMean (x : FVec Ideal ⟨2, ![a, n]⟩ .f32) : FVec Ideal ⟨2, ![a, 1]⟩ .f32 :=
  divf (shapeCast ⟨2, ![a, 1]⟩ (multiReduction .add [1] ⟨1, ![a]⟩ x 0x00000000#32 hr (.inl rfl) rfl) hs)
    (broadcast ⟨2, ![a, 1]⟩ (Scalar.ofBits (F := Ideal) .f32 nw))

/-- The array minus its column of means spread over the rows. -/
def vDev (x : FVec Ideal ⟨2, ![a, n]⟩ .f32) : FVec Ideal ⟨2, ![a, n]⟩ .f32 :=
  subf x (broadcastTo ⟨2, ![a, n]⟩ (vMean nw hr hs x) hb)

/-- The column of reciprocal standard deviations. -/
def vInv (x : FVec Ideal ⟨2, ![a, n]⟩ .f32) : FVec Ideal ⟨2, ![a, 1]⟩ .f32 :=
  rsqrt (addf
    (divf (shapeCast ⟨2, ![a, 1]⟩
        (multiReduction .add [1] ⟨1, ![a]⟩ (mulf (vDev nw hr hs hb x) (vDev nw hr hs hb x)) 0x00000000#32 hr (.inl rfl) rfl) hs)
      (broadcast ⟨2, ![a, 1]⟩ (Scalar.ofBits (F := Ideal) .f32 nw)))
    (broadcast ⟨2, ![a, 1]⟩ (Scalar.ofBits (F := Ideal) .f32 ew)))

/-- The normalized array. -/
def vNorm (x : FVec Ideal ⟨2, ![a, n]⟩ .f32) : FVec Ideal ⟨2, ![a, n]⟩ .f32 :=
  mulf (vDev nw hr hs hb x) (broadcastTo ⟨2, ![a, n]⟩ (vInv nw ew hr hs hb x) hb)

/-- The normalized array, then the maximum with a splat zero. -/
def vNormRelu (x : FVec Ideal ⟨2, ![a, n]⟩ .f32) : FVec Ideal ⟨2, ![a, n]⟩ .f32 :=
  maximumf (vNorm nw ew hr hs hb x) (broadcast ⟨2, ![a, n]⟩ (Scalar.ofBits (F := Ideal) .f32 0x00000000#32))

theorem vMean_apply (x : FVec Ideal ⟨2, ![a, n]⟩ .f32) (r : Fin a) (u : Fin 1) :
    vMean nw hr hs x (ix2 r u) = rowMean nw (fun k => x (ix2 r k)) :=
  congrArg (fun z => Ideal.div z (Ideal.ofBits .f32 nw))
    ((Cert.LibLaneSums.shapeCast_a_a1_apply _ hs r u).trans
      (Cert.LibLaneSums.sum_last_apply x 0x00000000#32 hr (.inl rfl) rfl r))

theorem vDev_apply (x : FVec Ideal ⟨2, ![a, n]⟩ .f32) (r : Fin a) (c : Fin n) :
    vDev nw hr hs hb x (ix2 r c) = x (ix2 r c) - rowMean nw (fun k => x (ix2 r k)) :=
  congrArg (fun z => x (ix2 r c) - z)
    ((Cert.LibUnitAxes.broadcastTo_a1_ab_apply _ hb r c).trans (vMean_apply nw hr hs x r 0))

theorem vInv_apply (x : FVec Ideal ⟨2, ![a, n]⟩ .f32) (r : Fin a) (u : Fin 1) :
    vInv nw ew hr hs hb x (ix2 r u) = rowInv nw ew (fun k => x (ix2 r k)) :=
  congrArg (fun z => Ideal.rsqrt (Ideal.div z (Ideal.ofBits .f32 nw) + Ideal.ofBits .f32 ew))
    (((Cert.LibLaneSums.shapeCast_a_a1_apply _ hs r u).trans
      (Cert.LibLaneSums.sum_last_apply (mulf (vDev nw hr hs hb x) (vDev nw hr hs hb x)) 0x00000000#32 hr (.inl rfl) rfl r)).trans
      (Finset.sum_congr rfl fun k _ =>
        (congrArg₂ (· * ·) (vDev_apply nw hr hs hb x r k) (vDev_apply nw hr hs hb x r k))))

/-- The vector unit's normalized array at (r, c) is the normalized row r at c. -/
theorem vNorm_apply (x : FVec Ideal ⟨2, ![a, n]⟩ .f32) (r : Fin a) (c : Fin n) :
    vNorm nw ew hr hs hb x (ix2 r c) = lnRow nw ew (fun k => x (ix2 r k)) c :=
  congrArg₂ (· * ·) (vDev_apply nw hr hs hb x r c)
    ((Cert.LibUnitAxes.broadcastTo_a1_ab_apply _ hb r c).trans (vInv_apply nw ew hr hs hb x r 0))

/-- … and with the maximum against zero. -/
theorem vNormRelu_apply (x : FVec Ideal ⟨2, ![a, n]⟩ .f32) (r : Fin a) (c : Fin n) :
    vNormRelu nw ew hr hs hb x (ix2 r c) = lnReluRow nw ew (fun k => x (ix2 r k)) c :=
  congrArg (fun z => max z (Ideal.ofBits .f32 0x00000000#32)) (vNorm_apply nw ew hr hs hb x r c)

end Vector

/-! ## The host's spelling -/

section Host

variable {a n : ℕ} (nw ew : BitVec 32)
  (hR : (⟨2, ![a, n]⟩ : Shape).ReducesTo [1] ⟨1, ![a]⟩)
  (hr : (⟨2, ![a, n]⟩ : Shape).Reduces [1] ⟨1, ![a]⟩)
  (h0 : 0 < (⟨0, ![]⟩ : Shape).numel)
  (hb0 : (⟨1, ![a]⟩ : Shape).BroadcastsInDim ⟨2, ![a, 1]⟩ ![0])
  (hbs : (⟨0, ![]⟩ : Shape).BroadcastsInDim ⟨2, ![a, 1]⟩ ![])
  (hb01 : (⟨2, ![a, 1]⟩ : Shape).BroadcastsInDim ⟨2, ![a, n]⟩ ![0, 1])
  (hbz : (⟨0, ![]⟩ : Shape).BroadcastsInDim ⟨2, ![a, n]⟩ ![])

include hr in
/-- The host's row sums from a zero initial value, at row r. -/
theorem hSum_apply (x : FVec Ideal ⟨2, ![a, n]⟩ .f32) (r : Fin a) :
    Host.reduceAdd x (constant (F := Ideal) ⟨0, ![]⟩ .f32 0x00000000#32) hR h0 (ix1 r) = ∑ k : Fin n, x (ix2 r k) := by
  refine (Ideal.hostReduceAdd_single hR hr x _ (ix1 r)).trans ?_
  rw [show (constant (F := Ideal) ⟨0, ![]⟩ .f32 0x00000000#32) (Shape.Idx.first h0) = 0 from Ideal.ofBits_zero_f32, zero_add]
  exact Finset.sum_congr rfl fun k _ => congrArg x (Cert.LibLaneSums.lift_last hr r k)

/-- An [a] array spread to [a, 1] along dimension 0 reads, at (r, u), the array at r. -/
theorem col_apply {α : Type} (v : (⟨1, ![a]⟩ : Shape).Idx → α) (r : Fin a) (u : Fin 1) :
    broadcastInDim ⟨2, ![a, 1]⟩ ![0] hb0 v (ix2 r u) = v (ix1 r) :=
  broadcastInDim_apply ![0] hb0 v (ix2 r u) (ix1 r) fun ax => match ax with
    | ⟨0, _⟩ => by
      show r.val = if a = 1 then 0 else r.val
      split
      · have := r.isLt; omega
      · rfl

/-- The host's column of row sums over the broadcast divisor. -/
def hMean (x : FVec Ideal ⟨2, ![a, n]⟩ .f32) : FVec Ideal ⟨2, ![a, 1]⟩ .f32 :=
  Host.divf (broadcastInDim ⟨2, ![a, 1]⟩ ![0] hb0 (Host.reduceAdd x (constant (F := Ideal) ⟨0, ![]⟩ .f32 0x00000000#32) hR h0))
    (broadcastInDim ⟨2, ![a, 1]⟩ ![] hbs (constant (F := Ideal) ⟨0, ![]⟩ .f32 nw))

/-- The array minus its column of means spread over the rows. -/
def hDev (x : FVec Ideal ⟨2, ![a, n]⟩ .f32) : FVec Ideal ⟨2, ![a, n]⟩ .f32 :=
  subf x (broadcastInDim ⟨2, ![a, n]⟩ ![0, 1] hb01 (hMean nw hR h0 hb0 hbs x))

/-- The host's column of reciprocal standard deviations. -/
def hInv (x : FVec Ideal ⟨2, ![a, n]⟩ .f32) : FVec Ideal ⟨2, ![a, 1]⟩ .f32 :=
  Host.rsqrt (addf
    (Host.divf (broadcastInDim ⟨2, ![a, 1]⟩ ![0] hb0
        (Host.reduceAdd (mulf (hDev nw hR h0 hb0 hbs hb01 x) (hDev nw hR h0 hb0 hbs hb01 x))
          (constant (F := Ideal) ⟨0, ![]⟩ .f32 0x00000000#32) hR h0))
      (broadcastInDim ⟨2, ![a, 1]⟩ ![] hbs (constant (F := Ideal) ⟨0, ![]⟩ .f32 nw)))
    (broadcastInDim ⟨2, ![a, 1]⟩ ![] hbs (constant (F := Ideal) ⟨0, ![]⟩ .f32 ew)))

/-- The host's normalized array. -/
def hNorm (x : FVec Ideal ⟨2, ![a, n]⟩ .f32) : FVec Ideal ⟨2, ![a, n]⟩ .f32 :=
  mulf (hDev nw hR h0 hb0 hbs hb01 x) (broadcastInDim ⟨2, ![a, n]⟩ ![0, 1] hb01 (hInv nw ew hR h0 hb0 hbs hb01 x))

/-- The host's normalized array, then the maximum with a broadcast zero. -/
def hNormRelu (x : FVec Ideal ⟨2, ![a, n]⟩ .f32) : FVec Ideal ⟨2, ![a, n]⟩ .f32 :=
  maximumf (hNorm nw ew hR h0 hb0 hbs hb01 x)
    (broadcastInDim ⟨2, ![a, n]⟩ ![] hbz (constant (F := Ideal) ⟨0, ![]⟩ .f32 0x00000000#32))

include hr in
theorem hMean_apply (x : FVec Ideal ⟨2, ![a, n]⟩ .f32) (r : Fin a) (u : Fin 1) :
    hMean nw hR h0 hb0 hbs x (ix2 r u) = rowMean nw (fun k => x (ix2 r k)) :=
  congrArg₂ Ideal.div ((col_apply hb0 _ r u).trans (hSum_apply hR hr h0 x r))
    (Cert.LibUnitAxes.broadcastInDim_scalar_apply _ hbs (ix2 r u))

include hr in
theorem hDev_apply (x : FVec Ideal ⟨2, ![a, n]⟩ .f32) (r : Fin a) (c : Fin n) :
    hDev nw hR h0 hb0 hbs hb01 x (ix2 r c) = x (ix2 r c) - rowMean nw (fun k => x (ix2 r k)) :=
  congrArg (fun z => x (ix2 r c) - z)
    ((Cert.LibUnitAxes.broadcastInDim_a1_ab_apply _ hb01 r c).trans (hMean_apply nw hR hr h0 hb0 hbs x r 0))

include hr in
theorem hInv_apply (x : FVec Ideal ⟨2, ![a, n]⟩ .f32) (r : Fin a) (u : Fin 1) :
    hInv nw ew hR h0 hb0 hbs hb01 x (ix2 r u) = rowInv nw ew (fun k => x (ix2 r k)) :=
  congrArg Ideal.rsqrt (congrArg₂ (· + ·)
    (congrArg₂ Ideal.div
      (((col_apply hb0 _ r u).trans (hSum_apply hR hr h0 _ r)).trans
        (Finset.sum_congr rfl fun k _ =>
          congrArg₂ (· * ·) (hDev_apply nw hR hr h0 hb0 hbs hb01 x r k) (hDev_apply nw hR hr h0 hb0 hbs hb01 x r k)))
      (Cert.LibUnitAxes.broadcastInDim_scalar_apply _ hbs (ix2 r u)))
    (Cert.LibUnitAxes.broadcastInDim_scalar_apply _ hbs (ix2 r u)))

include hr in
/-- The host's normalized array at (r, c) is the normalized row r at c. -/
theorem hNorm_apply (x : FVec Ideal ⟨2, ![a, n]⟩ .f32) (r : Fin a) (c : Fin n) :
    hNorm nw ew hR h0 hb0 hbs hb01 x (ix2 r c) = lnRow nw ew (fun k => x (ix2 r k)) c :=
  congrArg₂ (· * ·) (hDev_apply nw hR hr h0 hb0 hbs hb01 x r c)
    ((Cert.LibUnitAxes.broadcastInDim_a1_ab_apply _ hb01 r c).trans (hInv_apply nw ew hR hr h0 hb0 hbs hb01 x r 0))

include hr in
/-- … and with the maximum against zero. -/
theorem hNormRelu_apply (x : FVec Ideal ⟨2, ![a, n]⟩ .f32) (r : Fin a) (c : Fin n) :
    hNormRelu nw ew hR h0 hb0 hbs hb01 hbz x (ix2 r c) = lnReluRow nw ew (fun k => x (ix2 r k)) c :=
  congrArg₂ max (hNorm_apply nw ew hR hr h0 hb0 hbs hb01 x r c)
    (Cert.LibUnitAxes.broadcastInDim_scalar_apply _ hbz (ix2 r c))

end Host

end Cert.LibRowNorm

end
-- ==== Proof.Spec.lean ====
/-
  The row-local shape of a graph-convolution layer, on the extended reals.

  A layer is: a matrix product with a weight matrix, a gather / segment-sum over the edges (shared verbatim by both
  programs and never opened), and a layer normalization of each row, followed in the first two layers by a maximum
  with zero.  Both the matrix product and the normalization are ROW-LOCAL: entry (r, c) of the result depends only on
  row r of the input (and, for the product, on column c of the weight matrix).  So a row tile of the result computed
  from a row tile of the input holds the same numbers as the whole-array operation restricted to that tile — the one
  fact that joins a kernel tiled along the rows to the untiled reference.  Here the whole-array functions are spelt
  once, entry by entry, over the row formulas (the normalization's are LibRowNorm.lean's); each program proves its own
  operations equal to them.
-/
import Idealize.ShloMosaic.PureOps.Ideal
import Idealize.ShloMosaic.Lib.ValueIdx
import proofs.«134028_j33440615366817_1_alg».proof.Proof.LibRowNorm

noncomputable section

namespace Cert.GcnSpec

open Idealize.ShloMosaic Idealize.ShloMosaic.ValueIdx Cert.LibRowNorm

/-- A row against a column: the sum over k of a(k) · b(k). -/
def rowDot {K : ℕ} (a b : Fin K → EReal) : EReal := ∑ k : Fin K, a k * b k

/-- The matrix product of an [M, K] by a [K, N] array: entry (i₀, i₁) is row i₀ against column i₁. -/
def dotArr {M K N : ℕ} (x : (⟨2, ![M, K]⟩ : Shape).Idx → EReal) (w : (⟨2, ![K, N]⟩ : Shape).Idx → EReal) :
    (⟨2, ![M, N]⟩ : Shape).Idx → EReal :=
  fun i => rowDot (fun k : Fin K => x (ix2 (⟨(i 0).val, idx2_lt0 i⟩ : Fin M) k))
    (fun k : Fin K => w (ix2 k (⟨(i 1).val, idx2_lt1 i⟩ : Fin N)))

theorem dotArr_apply {M K N : ℕ} (x : (⟨2, ![M, K]⟩ : Shape).Idx → EReal) (w : (⟨2, ![K, N]⟩ : Shape).Idx → EReal)
    (r : Fin M) (c : Fin N) :
    dotArr x w (ix2 r c) = rowDot (fun k : Fin K => x (ix2 r k)) (fun k : Fin K => w (ix2 k c)) := rfl

/-- Every row of an [M, N] array normalized: entry (i₀, i₁) is the normalized row i₀ at column i₁. -/
def normArr {M N : ℕ} (nw ew : BitVec 32) (x : (⟨2, ![M, N]⟩ : Shape).Idx → EReal) : (⟨2, ![M, N]⟩ : Shape).Idx → EReal :=
  fun i => lnRow nw ew (fun k : Fin N => x (ix2 (⟨(i 0).val, idx2_lt0 i⟩ : Fin M) k)) (⟨(i 1).val, idx2_lt1 i⟩ : Fin N)

theorem normArr_apply {M N : ℕ} (nw ew : BitVec 32) (x : (⟨2, ![M, N]⟩ : Shape).Idx → EReal) (r : Fin M) (c : Fin N) :
    normArr nw ew x (ix2 r c) = lnRow nw ew (fun k : Fin N => x (ix2 r k)) c := rfl

/-- Every row normalized, then the maximum with zero. -/
def normReluArr {M N : ℕ} (nw ew : BitVec 32) (x : (⟨2, ![M, N]⟩ : Shape).Idx → EReal) : (⟨2, ![M, N]⟩ : Shape).Idx → EReal :=
  fun i => lnReluRow nw ew (fun k : Fin N => x (ix2 (⟨(i 0).val, idx2_lt0 i⟩ : Fin M) k)) (⟨(i 1).val, idx2_lt1 i⟩ : Fin N)

theorem normReluArr_apply {M N : ℕ} (nw ew : BitVec 32) (x : (⟨2, ![M, N]⟩ : Shape).Idx → EReal) (r : Fin M) (c : Fin N) :
    normReluArr nw ew x (ix2 r c) = lnReluRow nw ew (fun k : Fin N => x (ix2 r k)) c := rfl

end Cert.GcnSpec

end
-- ==== Proof.PayDot.lean ====
/-
  The three matrix-product kernels' stored values, at one entry.

  Each body rounds its two loaded tiles to bf16 (the identity on extended reals), multiplies them into a zero
  accumulator and stores the product.  At entry (r, c) of the row tile the stored value is therefore row r of the
  left tile against column c of the weight matrix: a sum over the 128 contracted positions.
-/
import proofs.«134028_j33440615366817_1_alg».proof.Proof.Gen.KernelIdeal.Skeleton
import proofs.«134028_j33440615366817_1_alg».proof.Proof.LibPlainDot
import proofs.«134028_j33440615366817_1_alg».proof.Proof.Spec
import Idealize.ShloMosaic.Lib.Pipeline.Value

noncomputable section

namespace Cert.KernelIdeal.PayDot

open Cert.KernelIdeal Cert.KernelIdeal.Gen Idealize.ShloMosaic Idealize.ShloMosaic.ValueIdx Cert.GcnSpec

/-! ## The dimension numbers of the two products: left axis 1 against right axis 0, no batch axes -/

theorem lrow_w (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem rcol_w (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem lrow_n (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

theorem rcol_n (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## The stored values -/

/-- Layer 0's product tile at (r, c): row r of the feature tile against column c of the weights. -/
theorem pay0_apply (x0 : Vec Ideal S5000x128 .f32) (x1 : Vec Ideal S128x128 .f32) (r : Fin 5000) (c : Fin 128) :
    k0_pay1 (F := Ideal) x0 x1 (ix2 r c) = rowDot (fun k : Fin 128 => x0 (ix2 r k)) (fun k : Fin 128 => x1 (ix2 k c)) := by
  unfold k0_pay1
  exact Cert.LibPlainDot.matmul_zero_apply (M := 5000) (K := 128) (N := 128)
    dot_S5000x128_S128x128_S5000x128_1_0_0_1_n_n rfl rfl rfl rfl lrow_w rcol_w none _ _ r c

/-- Layer 1's product tile at (r, c); the body first casts the loaded tile to its own shape, which moves nothing. -/
theorem pay2_apply (x0 : Vec Ideal S5000x128 .f32) (x1 : Vec Ideal S128x128 .f32) (r : Fin 5000) (c : Fin 128) :
    k2_pay1 (F := Ideal) x0 x1 (ix2 r c) = rowDot (fun k : Fin 128 => x0 (ix2 r k)) (fun k : Fin 128 => x1 (ix2 k c)) := by
  unfold k2_pay1
  rw [shapeCast_self]
  exact Cert.LibPlainDot.matmul_zero_apply (M := 5000) (K := 128) (N := 128)
    dot_S5000x128_S128x128_S5000x128_1_0_0_1_n_n rfl rfl rfl rfl lrow_w rcol_w none _ _ r c

/-- Layer 2's product tile at (r, c), 64 columns wide. -/
theorem pay4_apply (x0 : Vec Ideal S5000x128 .f32) (x1 : Vec Ideal S128x64 .f32) (r : Fin 5000) (c : Fin 64) :
    k4_pay1 (F := Ideal) x0 x1 (ix2 r c) = rowDot (fun k : Fin 128 => x0 (ix2 r k)) (fun k : Fin 128 => x1 (ix2 k c)) := by
  unfold k4_pay1
  rw [shapeCast_self]
  exact Cert.LibPlainDot.matmul_zero_apply (M := 5000) (K := 128) (N := 64)
    dot_S5000x128_S128x64_S5000x64_1_0_0_1_n_n rfl rfl rfl rfl lrow_n rcol_n none _ _ r c

end Cert.KernelIdeal.PayDot

end
-- ==== Proof.RegionDot0.lean ====
/-
  Layer 0's product, as one array.  The kernel sweeps ten row tiles of 5000 rows; tile t of the result is row tile t
  of the left array times the whole weight matrix.  Entry (r, c) of tile t is row 5000·t + r of the left array against
  column c of the weights, which is entry (5000·t + r, c) of the one whole product: the tiles are restrictions of one
  whole-array function, and they cover the array, so the array ends holding that function.
-/
import proofs.«134028_j33440615366817_1_alg».proof.Proof.Gen.KernelIdeal.Frame
import proofs.«134028_j33440615366817_1_alg».proof.Proof.PayDot
import proofs.«134028_j33440615366817_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.RegionDot0

open Cert.KernelIdeal Cert.KernelIdeal.Gen Idealize.ShloMosaic.ValueIdx Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of tile t is row 5000·t + r of the array. -/
def row (t : Fin cfg0.N) (r : Fin 5000) : Fin 50000 :=
  ⟨t.val * 5000 + r.val, by have := t.isLt; have hN : cfg0.N = 10 := N_0; have := r.isLt; omega⟩

/-- The left window's block at point t, at (r, k), is the left array at (5000·t + r, k). -/
theorem blk0_read (c : Dev nD) (t : Fin cfg0.N) (r : Fin 5000) (k : Fin 128) :
    (iblk0 V c 0 t : Vec Ideal S5000x128 .f32) (ix2 r k) = (V c main_arg0 : S50000x128.Idx → Elt Ideal .f32) (ix2 (row t r) k) := by
  obtain ⟨e0, e1, e2, e3, e4, e5⟩ := idx_facts t
  unfold iblk0
  rw [View.read_apply]
  show (V c main_arg0 : S50000x128.Idx → Elt Ideal .f32) _ = _
  refine congrArg _ (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

/-- The weight window's block at any point is the whole weight matrix. -/
theorem blk1_read (c : Dev nD) (t : Fin cfg0.N) (k : Fin 128) (q : Fin 128) :
    (iblk0 V c 1 t : Vec Ideal S128x128 .f32) (ix2 k q) = (V c main_arg1 : S128x128.Idx → Elt Ideal .f32) (ix2 k q) := by
  obtain ⟨e0, e1, e2, e3, e4, e5⟩ := idx_facts t
  unfold iblk0
  rw [View.read_apply]
  show (V c main_arg1 : S128x128.Idx → Elt Ideal .f32) _ = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Entry (r, q) of the output's block at point t sits at (5000·t + r, q) of the array. -/
theorem emb2 (t : Fin cfg0.N) (r : Fin 5000) (q : Fin 128) :
    ((cfg0.win 2).blk t).view.emb (ix2 r q) = (ix2 (row t r) q : S50000x128.Idx) := by
  obtain ⟨e0, e1, e2, e3, e4, e5⟩ := idx_facts t
  refine funext fun a => Fin.ext ?_
  match a with
  | ⟨0, _⟩ => show win0_2.index t (0 : Fin 2) * 5000 + 1 * r.val = t.val * 5000 + r.val; rw [e4]; omega
  | ⟨1, _⟩ => show win0_2.index t (1 : Fin 2) * 128 + 1 * q.val = q.val; rw [e5]; omega

/-- What point t writes back is block t of the whole product of the arrays the region finds. -/
theorem flushed_eq (c : Dev nD) (t : Fin cfg0.N) :
    (dat0 V c).flushed 2 t = ((cfg0.win 2).blk t).view.read (Elt Ideal) (dotArr (M := 50000) (K := 128) (N := 128) (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨r, q, rfl⟩ : ∃ (r : Fin 5000) (q : Fin 128), j = ix2 r q := ⟨j 0, j 1, eq_ix2 (n0 := 5000) (n1 := 128) j⟩
  show k0_pay1 (iblk0 V c 0 t) (iblk0 V c 1 t) (ix2 r q) = dotArr (M := 50000) (K := 128) (N := 128) (V c main_arg0) (V c main_arg1) (((cfg0.win 2).blk t).view.emb (ix2 r q))
  refine (Cert.KernelIdeal.PayDot.pay0_apply (iblk0 V c 0 t) (iblk0 V c 1 t) r q).trans ?_
  rw [emb2 t r q, dotArr_apply]
  refine congrArg₂ rowDot (funext fun k => ?_) (funext fun k => ?_)
  · exact blk0_read V c t r k
  · exact blk1_read V c t k q

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row i₀ lies in the block of point i₀ / 5000: the ten blocks cover the array. -/
theorem cover (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4]; omega
  | ⟨1, _⟩ => show win0_2.index t (1 : Fin 2) * 128 ≤ (i 1).val ∧ (i 1).val < win0_2.index t (1 : Fin 2) * 128 + 128; rw [e5]; omega

/-- The product array after the region: the whole product of the two arrays the region finds. -/
theorem final (c : Dev nD) : (dat0 V c).arrAt 2 cfg0.N = dotArr (M := 50000) (K := 128) (N := 128) (V c main_arg0) (V c main_arg1) :=
  (dat0 V c).arrAt_eq_of_cover 2 (dotArr (M := 50000) (K := 128) (N := 128) (V c main_arg0) (V c main_arg1)) (fun t _ => flushed_eq V c t) cover

end Cert.KernelIdeal.RegionDot0

end
-- ==== Proof.RegionDot2.lean ====
/-
  Layer 1's product, as one array.  The kernel sweeps ten row tiles of 5000 rows; tile t of the result is row tile t
  of the left array times the whole weight matrix.  Entry (r, c) of tile t is row 5000·t + r of the left array against
  column c of the weights, which is entry (5000·t + r, c) of the one whole product: the tiles are restrictions of one
  whole-array function, and they cover the array, so the array ends holding that function.
-/
import proofs.«134028_j33440615366817_1_alg».proof.Proof.Gen.KernelIdeal.Frame
import proofs.«134028_j33440615366817_1_alg».proof.Proof.PayDot
import proofs.«134028_j33440615366817_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.RegionDot2

open Cert.KernelIdeal Cert.KernelIdeal.Gen Idealize.ShloMosaic.ValueIdx Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the weight window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row r of tile t is row 5000·t + r of the array. -/
def row (t : Fin cfg2.N) (r : Fin 5000) : Fin 50000 :=
  ⟨t.val * 5000 + r.val, by have := t.isLt; have hN : cfg2.N = 10 := N_2; have := r.isLt; omega⟩

/-- The left window's block at point t, at (r, k), is the left array at (5000·t + r, k). -/
theorem blk0_read (c : Dev nD) (t : Fin cfg2.N) (r : Fin 5000) (k : Fin 128) :
    (iblk2 V c 0 t : Vec Ideal S5000x128 .f32) (ix2 r k) = (V c main_v11 : S50000x128.Idx → Elt Ideal .f32) (ix2 (row t r) k) := by
  obtain ⟨e0, e1, e2, e3, e4, e5⟩ := idx_facts t
  unfold iblk2
  rw [View.read_apply]
  show (V c main_v11 : S50000x128.Idx → Elt Ideal .f32) _ = _
  refine congrArg _ (funext fun a => Fin.ext ?_)
  match a with
  | ⟨0, _⟩ => show win2_0.index t (0 : Fin 2) * 5000 + 1 * r.val = t.val * 5000 + r.val; rw [e0]; omega
  | ⟨1, _⟩ => show win2_0.index t (1 : Fin 2) * 128 + 1 * k.val = k.val; rw [e1]; omega

/-- The weight window's block at any point is the whole weight matrix. -/
theorem blk1_read (c : Dev nD) (t : Fin cfg2.N) (k : Fin 128) (q : Fin 128) :
    (iblk2 V c 1 t : Vec Ideal S128x128 .f32) (ix2 k q) = (V c main_arg2 : S128x128.Idx → Elt Ideal .f32) (ix2 k q) := by
  obtain ⟨e0, e1, e2, e3, e4, e5⟩ := idx_facts t
  unfold iblk2
  rw [View.read_apply]
  show (V c main_arg2 : S128x128.Idx → Elt Ideal .f32) _ = _
  refine congrArg _ (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- Entry (r, q) of the output's block at point t sits at (5000·t + r, q) of the array. -/
theorem emb2 (t : Fin cfg2.N) (r : Fin 5000) (q : Fin 128) :
    ((cfg2.win 2).blk t).view.emb (ix2 r q) = (ix2 (row t r) q : S50000x128.Idx) := by
  obtain ⟨e0, e1, e2, e3, e4, e5⟩ := idx_facts t
  refine funext fun a => Fin.ext ?_
  match a with
  | ⟨0, _⟩ => show win2_2.index t (0 : Fin 2) * 5000 + 1 * r.val = t.val * 5000 + r.val; rw [e4]; omega
  | ⟨1, _⟩ => show win2_2.index t (1 : Fin 2) * 128 + 1 * q.val = q.val; rw [e5]; omega

/-- What point t writes back is block t of the whole product of the arrays the region finds. -/
theorem flushed_eq (c : Dev nD) (t : Fin cfg2.N) :
    (dat2 V c).flushed 2 t = ((cfg2.win 2).blk t).view.read (Elt Ideal) (dotArr (M := 50000) (K := 128) (N := 128) (V c main_v11) (V c main_arg2)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨r, q, rfl⟩ : ∃ (r : Fin 5000) (q : Fin 128), j = ix2 r q := ⟨j 0, j 1, eq_ix2 (n0 := 5000) (n1 := 128) j⟩
  show k2_pay1 (iblk2 V c 0 t) (iblk2 V c 1 t) (ix2 r q) = dotArr (M := 50000) (K := 128) (N := 128) (V c main_v11) (V c main_arg2) (((cfg2.win 2).blk t).view.emb (ix2 r q))
  refine (Cert.KernelIdeal.PayDot.pay2_apply (iblk2 V c 0 t) (iblk2 V c 1 t) r q).trans ?_
  rw [emb2 t r q, dotArr_apply]
  refine congrArg₂ rowDot (funext fun k => ?_) (funext fun k => ?_)
  · exact blk0_read V c t r k
  · exact blk1_read V c t k q

/-- An index of the array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v12).slice (win2_2.rect t)).set ↔ _
  rw [View.set_slice_whole, Rect.mem_set_unit]
  exact Iff.rfl

/-- Row i₀ lies in the block of point i₀ / 5000: the ten blocks cover the array. -/
theorem cover (i : S50000x128.Idx) :
    ∃ t : Fin cfg2.N, (cfg2.win 2).flush t = true ∧ i ∈ ((cfg2.win 2).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4]; omega
  | ⟨1, _⟩ => show win2_2.index t (1 : Fin 2) * 128 ≤ (i 1).val ∧ (i 1).val < win2_2.index t (1 : Fin 2) * 128 + 128; rw [e5]; omega

/-- The product array after the region: the whole product of the two arrays the region finds. -/
theorem final (c : Dev nD) : (dat2 V c).arrAt 2 cfg2.N = dotArr (M := 50000) (K := 128) (N := 128) (V c main_v11) (V c main_arg2) :=
  (dat2 V c).arrAt_eq_of_cover 2 (dotArr (M := 50000) (K := 128) (N := 128) (V c main_v11) (V c main_arg2)) (fun t _ => flushed_eq V c t) cover

end Cert.KernelIdeal.RegionDot2

end
-- ==== Proof.RegionDot4.lean ====
/-
  Layer 2's product, as one array.  The kernel sweeps ten row tiles of 5000 rows; tile t of the result is row tile t
  of the left array times the whole weight matrix.  Entry (r, c) of tile t is row 5000·t + r of the left array against
  column c of the weights, which is entry (5000·t + r, c) of the one whole product: the tiles are restrictions of one
  whole-array function, and they cover the array, so the array ends holding that function.
-/
import proofs.«134028_j33440615366817_1_alg».proof.Proof.Gen.KernelIdeal.Frame
import proofs.«134028_j33440615366817_1_alg».proof.Proof.PayDot
import proofs.«134028_j33440615366817_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.RegionDot4

open Cert.KernelIdeal Cert.KernelIdeal.Gen Idealize.ShloMosaic.ValueIdx Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the weight window at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row r of tile t is row 5000·t + r of the array. -/
def row (t : Fin cfg4.N) (r : Fin 5000) : Fin 50000 :=
  ⟨t.val * 5000 + r.val, by have := t.isLt; have hN : cfg4.N = 10 := N_4; have := r.isLt; omega⟩

/-- The left window's block at point t, at (r, k), is the left array at (5000·t + r, k). -/
theorem blk0_read (c : Dev nD) (t : Fin cfg4.N) (r : Fin 5000) (k : Fin 128) :
    (iblk4 V c 0 t : Vec Ideal S5000x128 .f32) (ix2 r k) = (V c main_v23 : S50000x128.Idx → Elt Ideal .f32) (ix2 (row t r) k) := by
  obtain ⟨e0, e1, e2, e3, e4, e5⟩ := idx_facts t
  unfold iblk4
  rw [View.read_apply]
  show (V c main_v23 : S50000x128.Idx → Elt Ideal .f32) _ = _
  refine congrArg _ (funext fun a => Fin.ext ?_)
  match a with
  | ⟨0, _⟩ => show win4_0.index t (0 : Fin 2) * 5000 + 1 * r.val = t.val * 5000 + r.val; rw [e0]; omega
  | ⟨1, _⟩ => show win4_0.index t (1 : Fin 2) * 128 + 1 * k.val = k.val; rw [e1]; omega

/-- The weight window's block at any point is the whole weight matrix. -/
theorem blk1_read (c : Dev nD) (t : Fin cfg4.N) (k : Fin 128) (q : Fin 64) :
    (iblk4 V c 1 t : Vec Ideal S128x64 .f32) (ix2 k q) = (V c main_arg3 : S128x64.Idx → Elt Ideal .f32) (ix2 k q) := by
  obtain ⟨e0, e1, e2, e3, e4, e5⟩ := idx_facts t
  unfold iblk4
  rw [View.read_apply]
  show (V c main_arg3 : S128x64.Idx → Elt Ideal .f32) _ = _
  refine congrArg _ (funext fun a => Fin.ext ?_)
  match a with
  | ⟨0, _⟩ => show win4_1.index t (0 : Fin 2) * 128 + 1 * k.val = k.val; rw [e2]; omega
  | ⟨1, _⟩ => show win4_1.index t (1 : Fin 2) * 64 + 1 * q.val = q.val; rw [e3]; omega

/-- Entry (r, q) of the output's block at point t sits at (5000·t + r, q) of the array. -/
theorem emb2 (t : Fin cfg4.N) (r : Fin 5000) (q : Fin 64) :
    ((cfg4.win 2).blk t).view.emb (ix2 r q) = (ix2 (row t r) q : S50000x64.Idx) := by
  obtain ⟨e0, e1, e2, e3, e4, e5⟩ := idx_facts t
  refine funext fun a => Fin.ext ?_
  match a with
  | ⟨0, _⟩ => show win4_2.index t (0 : Fin 2) * 5000 + 1 * r.val = t.val * 5000 + r.val; rw [e4]; omega
  | ⟨1, _⟩ => show win4_2.index t (1 : Fin 2) * 64 + 1 * q.val = q.val; rw [e5]; omega

/-- What point t writes back is block t of the whole product of the arrays the region finds. -/
theorem flushed_eq (c : Dev nD) (t : Fin cfg4.N) :
    (dat4 V c).flushed 2 t = ((cfg4.win 2).blk t).view.read (Elt Ideal) (dotArr (M := 50000) (K := 128) (N := 64) (V c main_v23) (V c main_arg3)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  funext j
  obtain ⟨r, q, rfl⟩ : ∃ (r : Fin 5000) (q : Fin 64), j = ix2 r q := ⟨j 0, j 1, eq_ix2 (n0 := 5000) (n1 := 64) j⟩
  show k4_pay1 (iblk4 V c 0 t) (iblk4 V c 1 t) (ix2 r q) = dotArr (M := 50000) (K := 128) (N := 64) (V c main_v23) (V c main_arg3) (((cfg4.win 2).blk t).view.emb (ix2 r q))
  refine (Cert.KernelIdeal.PayDot.pay4_apply (iblk4 V c 0 t) (iblk4 V c 1 t) r q).trans ?_
  rw [emb2 t r q, dotArr_apply]
  refine congrArg₂ rowDot (funext fun k => ?_) (funext fun k => ?_)
  · exact blk0_read V c t r k
  · exact blk1_read V c t k q

/-- An index of the array is in point t's block iff each coordinate is in the block's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v24).slice (win4_2.rect t)).set ↔ _
  rw [View.set_slice_whole, Rect.mem_set_unit]
  exact Iff.rfl

/-- Row i₀ lies in the block of point i₀ / 5000: the ten blocks cover the array. -/
theorem cover (i : S50000x64.Idx) :
    ∃ t : Fin cfg4.N, (cfg4.win 2).flush t = true ∧ i ∈ ((cfg4.win 2).blk t).view.set := by
  have hi0 : (i 0).val < 50000 := idx2_lt0 i
  have hi1 : (i 1).val < 64 := idx2_lt1 i
  have hN : cfg4.N = 10 := N_4
  obtain ⟨t, ht⟩ : ∃ t : Fin cfg4.N, t.val = (i 0).val / 5000 := ⟨⟨(i 0).val / 5000, by omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; rw [e4]; omega
  | ⟨1, _⟩ => show win4_2.index t (1 : Fin 2) * 64 ≤ (i 1).val ∧ (i 1).val < win4_2.index t (1 : Fin 2) * 64 + 64; rw [e5]; omega

/-- The product array after the region: the whole product of the two arrays the region finds. -/
theorem final (c : Dev nD) : (dat4 V c).arrAt 2 cfg4.N = dotArr (M := 50000) (K := 128) (N := 64) (V c main_v23) (V c main_arg3) :=
  (dat4 V c).arrAt_eq_of_cover 2 (dotArr (M := 50000) (K := 128) (N := 64) (V c main_v23) (V c main_arg3)) (fun t _ => flushed_eq V c t) cover

end Cert.KernelIdeal.RegionDot4

end
-- ==== Proof.PayNorm.lean ====
/-
  The three normalization kernels' stored values, at one entry.

  Each body sums its loaded tile along the lanes, divides by the row length, subtracts the mean, sums the squared
  deviations, divides again, adds ε, takes the reciprocal square root and multiplies; the first two also take the
  maximum with zero.  At entry (r, c) of the tile that is the layer normalization of the tile's row r at column c.
-/
import proofs.«134028_j33440615366817_1_alg».proof.Proof.Gen.KernelIdeal.Skeleton
import proofs.«134028_j33440615366817_1_alg».proof.Proof.LibRowNorm
import Idealize.ShloMosaic.Lib.Pipeline.Value

noncomputable section

namespace Cert.KernelIdeal.PayNorm

open Cert.KernelIdeal Cert.KernelIdeal.Gen Idealize.ShloMosaic Idealize.ShloMosaic.ValueIdx Cert.LibRowNorm

/-- Layer 0's normalized tile at (r, c): row r normalized over its 128 entries, then the maximum with zero. -/
theorem pay1_apply (x0 : Vec Ideal S5000x128 .f32) (r : Fin 5000) (c : Fin 128) :
    k1_pay1 (F := Ideal) x0 (ix2 r c) = lnReluRow 0x43000000#32 0x3727C5AC#32 (fun k : Fin 128 => x0 (ix2 r k)) c := by
  unfold k1_pay1
  rw [shapeCast_self]
  exact vNormRelu_apply (a := 5000) (n := 128) 0x43000000#32 0x3727C5AC#32 reduces_S5000x128_S5000 shapeCasts_S5000_S5000x1
    broadcasts_S5000x1_S5000x128 x0 r c

/-- Layer 1's normalized tile at (r, c). -/
theorem pay3_apply (x0 : Vec Ideal S5000x128 .f32) (r : Fin 5000) (c : Fin 128) :
    k3_pay1 (F := Ideal) x0 (ix2 r c) = lnReluRow 0x43000000#32 0x3727C5AC#32 (fun k : Fin 128 => x0 (ix2 r k)) c := by
  unfold k3_pay1
  rw [shapeCast_self]
  exact vNormRelu_apply (a := 5000) (n := 128) 0x43000000#32 0x3727C5AC#32 reduces_S5000x128_S5000 shapeCasts_S5000_S5000x1
    broadcasts_S5000x1_S5000x128 x0 r c

/-- Layer 2's normalized tile at (r, c): 64 entries per row, no maximum. -/
theorem pay5_apply (x0 : Vec Ideal S5000x64 .f32) (r : Fin 5000) (c : Fin 64) :
    k5_pay1 (F := Ideal) x0 (ix2 r c) = lnRow 0x42800000#32 0x3727C5AC#32 (fun k : Fin 64 => x0 (ix2 r k)) c := by
  unfold k5_pay1
  rw [shapeCast_self]
  exact vNorm_apply (a := 5000) (n := 64) 0x42800000#32 0x3727C5AC#32 reduces_S5000x64_S5000 shapeCasts_S5000_S5000x1
    broadcasts_S5000x1_S5000x64 x0 r c

end Cert.KernelIdeal.PayNorm

end
-- ==== Proof.RegionNorm1.lean ====
/-
  Layer 0's normalization, as one array.  The kernel sweeps ten row tiles of 5000 rows and normalizes each tile's
  rows on their own.  A row's normalization reads that row only, so entry (r, c) of tile t — row 5000·t + r of the
  array, normalized, at column c — is entry (5000·t + r, c) of the array normalized row by row all at once: the tiles
  are restrictions of one whole-array function, and they cover the array.
-/
import proofs.«134028_j33440615366817_1_alg».proof.Proof.Gen.KernelIdeal.Frame
import proofs.«134028_j33440615366817_1_alg».proof.Proof.PayNorm
import proofs.«134028_j33440615366817_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.RegionNorm1

open Cert.KernelIdeal Cert.KernelIdeal.Gen Idealize.ShloMosaic.ValueIdx Cert.GcnSpec Cert.LibRowNorm

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: both windows sit at block (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row r of tile t is row 5000·t + r of the array. -/
def row (t : Fin cfg1.N) (r : Fin 5000) : Fin 50000 :=
  ⟨t.val * 5000 + r.val, by have := t.isLt; have hN : cfg1.N = 10 := N_1; have := r.isLt; omega⟩

/-- The input window's block at point t, at (r, k), is the input array at (5000·t + r, k). -/
theorem blk0_read (c : Dev nD) (t : Fin cfg1.N) (r : Fin 5000) (k : Fin 128) :
    (iblk1 V c 0 t : Vec Ideal S5000x128 .f32) (ix2 r k) = (V c main_v10 : S50000x128.Idx → Elt Ideal .f32) (ix2 (row t r) k) := by
  obtain ⟨e0, e1, e2, e3⟩ := idx_facts t
  unfold iblk1
  rw [View.read_apply]
  show (V c main_v10 : S50000x128.Idx → Elt Ideal .f32) _ = _
  refine congrArg _ (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- Entry (r, q) of the output's block at point t sits at (5000·t + r, q) of the array. -/
theorem emb1 (t : Fin cfg1.N) (r : Fin 5000) (q : Fin 128) :
    ((cfg1.win 1).blk t).view.emb (ix2 r q) = (ix2 (row t r) q : S50000x128.Idx) := by
  obtain ⟨e0, e1, e2, e3⟩ := idx_facts t
  refine funext fun a => Fin.ext ?_
  match a with
  | ⟨0, _⟩ => show win1_1.index t (0 : Fin 2) * 5000 + 1 * r.val = t.val * 5000 + r.val; rw [e2]; omega
  | ⟨1, _⟩ => show win1_1.index t (1 : Fin 2) * 128 + 1 * q.val = q.val; rw [e3]; omega

/-- What point t writes back is block t of the input array normalized row by row. -/
theorem flushed_eq (c : Dev nD) (t : Fin cfg1.N) :
    (dat1 V c).flushed 1 t = ((cfg1.win 1).blk t).view.read (Elt Ideal) (normReluArr (M := 50000) (N := 128) 0x43000000#32 0x3727C5AC#32 (V c main_v10)) := by
  show (cfg1.win 1).cut (grid1.coords t) ((dat1 V c).after 1 t) = _
  rw [after1_1]
  unfold out1_1
  rw [View.canon_unit_zero hz]
  simp only [View.ld_unit_zero (S := S5000x128) hz]
  funext j
  obtain ⟨r, q, rfl⟩ : ∃ (r : Fin 5000) (q : Fin 128), j = ix2 r q := ⟨j 0, j 1, eq_ix2 (n0 := 5000) (n1 := 128) j⟩
  show k1_pay1 (iblk1 V c 0 t) (ix2 r q) = normReluArr (M := 50000) (N := 128) 0x43000000#32 0x3727C5AC#32 (V c main_v10) (((cfg1.win 1).blk t).view.emb (ix2 r q))
  refine (Cert.KernelIdeal.PayNorm.pay1_apply (iblk1 V c 0 t) r q).trans ?_
  rw [emb1 t r q, normReluArr_apply]
  refine congrArg (fun f => lnReluRow 0x43000000#32 0x3727C5AC#32 f q) (funext fun k => ?_)
  exact blk0_read V c t r k

/-- An index of the array is in point t's block iff each coordinate is in the block's range on its axis. -/
theorem mem_blk (t : Fin cfg1.N) (i : S50000x128.Idx) :
    i ∈ ((cfg1.win 1).blk t).view.set ↔ ∀ a : Fin 2, win1_1.index t a * S5000x128.size a ≤ (i a).val ∧ (i a).val < win1_1.index t a * S5000x128.size a + S5000x128.size a := by
  show i ∈ ((View.whole main_v11).slice (win1_1.rect t)).set ↔ _
  rw [View.set_slice_whole, Rect.mem_set_unit]
  exact Iff.rfl

/-- Row i₀ lies in the block of point i₀ / 5000: the ten blocks cover the array. -/
theorem cover (i : S50000x128.Idx) :
    ∃ t : Fin cfg1.N, (cfg1.win 1).flush t = true ∧ i ∈ ((cfg1.win 1).blk t).view.set := by
  have hi0 : (i 0).val < 50000 := idx2_lt0 i
  have hi1 : (i 1).val < 128 := idx2_lt1 i
  have hN : cfg1.N = 10 := N_1
  obtain ⟨t, ht⟩ : ∃ t : Fin cfg1.N, t.val = (i 0).val / 5000 := ⟨⟨(i 0).val / 5000, by omega⟩, rfl⟩
  obtain ⟨e0, e1, e2, e3⟩ := idx_facts t
  refine ⟨t, flush1_1 t, ?_⟩
  rw [mem_blk]
  intro a
  match a with
  | ⟨0, _⟩ => show win1_1.index t (0 : Fin 2) * 5000 ≤ (i 0).val ∧ (i 0).val < win1_1.index t (0 : Fin 2) * 5000 + 5000; rw [e2]; omega
  | ⟨1, _⟩ => show win1_1.index t (1 : Fin 2) * 128 ≤ (i 1).val ∧ (i 1).val < win1_1.index t (1 : Fin 2) * 128 + 128; rw [e3]; omega

/-- The normalized array after the region: the input array the region finds, normalized row by row. -/
theorem final (c : Dev nD) : (dat1 V c).arrAt 1 cfg1.N = normReluArr (M := 50000) (N := 128) 0x43000000#32 0x3727C5AC#32 (V c main_v10) :=
  (dat1 V c).arrAt_eq_of_cover 1 (normReluArr (M := 50000) (N := 128) 0x43000000#32 0x3727C5AC#32 (V c main_v10)) (fun t _ => flushed_eq V c t) cover

end Cert.KernelIdeal.RegionNorm1

end
-- ==== Proof.RegionNorm3.lean ====
/-
  Layer 1's normalization, as one array.  The kernel sweeps ten row tiles of 5000 rows and normalizes each tile's
  rows on their own.  A row's normalization reads that row only, so entry (r, c) of tile t — row 5000·t + r of the
  array, normalized, at column c — is entry (5000·t + r, c) of the array normalized row by row all at once: the tiles
  are restrictions of one whole-array function, and they cover the array.
-/
import proofs.«134028_j33440615366817_1_alg».proof.Proof.Gen.KernelIdeal.Frame
import proofs.«134028_j33440615366817_1_alg».proof.Proof.PayNorm
import proofs.«134028_j33440615366817_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.RegionNorm3

open Cert.KernelIdeal Cert.KernelIdeal.Gen Idealize.ShloMosaic.ValueIdx Cert.GcnSpec Cert.LibRowNorm

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: both windows sit at block (t, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Row r of tile t is row 5000·t + r of the array. -/
def row (t : Fin cfg3.N) (r : Fin 5000) : Fin 50000 :=
  ⟨t.val * 5000 + r.val, by have := t.isLt; have hN : cfg3.N = 10 := N_3; have := r.isLt; omega⟩

/-- The input window's block at point t, at (r, k), is the input array at (5000·t + r, k). -/
theorem blk0_read (c : Dev nD) (t : Fin cfg3.N) (r : Fin 5000) (k : Fin 128) :
    (iblk3 V c 0 t : Vec Ideal S5000x128 .f32) (ix2 r k) = (V c main_v22 : S50000x128.Idx → Elt Ideal .f32) (ix2 (row t r) k) := by
  obtain ⟨e0, e1, e2, e3⟩ := idx_facts t
  unfold iblk3
  rw [View.read_apply]
  show (V c main_v22 : S50000x128.Idx → Elt Ideal .f32) _ = _
  refine congrArg _ (funext fun a => Fin.ext ?_)
  match a with
  | ⟨0, _⟩ => show win3_0.index t (0 : Fin 2) * 5000 + 1 * r.val = t.val * 5000 + r.val; rw [e0]; omega
  | ⟨1, _⟩ => show win3_0.index t (1 : Fin 2) * 128 + 1 * k.val = k.val; rw [e1]; omega

/-- Entry (r, q) of the output's block at point t sits at (5000·t + r, q) of the array. -/
theorem emb1 (t : Fin cfg3.N) (r : Fin 5000) (q : Fin 128) :
    ((cfg3.win 1).blk t).view.emb (ix2 r q) = (ix2 (row t r) q : S50000x128.Idx) := by
  obtain ⟨e0, e1, e2, e3⟩ := idx_facts t
  refine funext fun a => Fin.ext ?_
  match a with
  | ⟨0, _⟩ => show win3_1.index t (0 : Fin 2) * 5000 + 1 * r.val = t.val * 5000 + r.val; rw [e2]; omega
  | ⟨1, _⟩ => show win3_1.index t (1 : Fin 2) * 128 + 1 * q.val = q.val; rw [e3]; omega

/-- What point t writes back is block t of the input array normalized row by row. -/
theorem flushed_eq (c : Dev nD) (t : Fin cfg3.N) :
    (dat3 V c).flushed 1 t = ((cfg3.win 1).blk t).view.read (Elt Ideal) (normReluArr (M := 50000) (N := 128) 0x43000000#32 0x3727C5AC#32 (V c main_v22)) := by
  show (cfg3.win 1).cut (grid3.coords t) ((dat3 V c).after 1 t) = _
  rw [after3_1]
  unfold out3_1
  rw [View.canon_unit_zero hz]
  simp only [View.ld_unit_zero (S := S5000x128) hz]
  funext j
  obtain ⟨r, q, rfl⟩ : ∃ (r : Fin 5000) (q : Fin 128), j = ix2 r q := ⟨j 0, j 1, eq_ix2 (n0 := 5000) (n1 := 128) j⟩
  show k3_pay1 (iblk3 V c 0 t) (ix2 r q) = normReluArr (M := 50000) (N := 128) 0x43000000#32 0x3727C5AC#32 (V c main_v22) (((cfg3.win 1).blk t).view.emb (ix2 r q))
  refine (Cert.KernelIdeal.PayNorm.pay3_apply (iblk3 V c 0 t) r q).trans ?_
  rw [emb1 t r q, normReluArr_apply]
  refine congrArg (fun f => lnReluRow 0x43000000#32 0x3727C5AC#32 f q) (funext fun k => ?_)
  exact blk0_read V c t r k

/-- An index of the array is in point t's block iff each coordinate is in the block's range on its axis. -/
theorem mem_blk (t : Fin cfg3.N) (i : S50000x128.Idx) :
    i ∈ ((cfg3.win 1).blk t).view.set ↔ ∀ a : Fin 2, win3_1.index t a * S5000x128.size a ≤ (i a).val ∧ (i a).val < win3_1.index t a * S5000x128.size a + S5000x128.size a := by
  show i ∈ ((View.whole main_v23).slice (win3_1.rect t)).set ↔ _
  rw [View.set_slice_whole, Rect.mem_set_unit]
  exact Iff.rfl

/-- Row i₀ lies in the block of point i₀ / 5000: the ten blocks cover the array. -/
theorem cover (i : S50000x128.Idx) :
    ∃ t : Fin cfg3.N, (cfg3.win 1).flush t = true ∧ i ∈ ((cfg3.win 1).blk t).view.set := by
  have hi0 : (i 0).val < 50000 := idx2_lt0 i
  have hi1 : (i 1).val < 128 := idx2_lt1 i
  have hN : cfg3.N = 10 := N_3
  obtain ⟨t, ht⟩ : ∃ t : Fin cfg3.N, t.val = (i 0).val / 5000 := ⟨⟨(i 0).val / 5000, by omega⟩, rfl⟩
  obtain ⟨e0, e1, e2, e3⟩ := idx_facts t
  refine ⟨t, flush3_1 t, ?_⟩
  rw [mem_blk]
  intro a
  match a with
  | ⟨0, _⟩ => show win3_1.index t (0 : Fin 2) * 5000 ≤ (i 0).val ∧ (i 0).val < win3_1.index t (0 : Fin 2) * 5000 + 5000; rw [e2]; omega
  | ⟨1, _⟩ => show win3_1.index t (1 : Fin 2) * 128 ≤ (i 1).val ∧ (i 1).val < win3_1.index t (1 : Fin 2) * 128 + 128; rw [e3]; omega

/-- The normalized array after the region: the input array the region finds, normalized row by row. -/
theorem final (c : Dev nD) : (dat3 V c).arrAt 1 cfg3.N = normReluArr (M := 50000) (N := 128) 0x43000000#32 0x3727C5AC#32 (V c main_v22) :=
  (dat3 V c).arrAt_eq_of_cover 1 (normReluArr (M := 50000) (N := 128) 0x43000000#32 0x3727C5AC#32 (V c main_v22)) (fun t _ => flushed_eq V c t) cover

end Cert.KernelIdeal.RegionNorm3

end
-- ==== Proof.RegionNorm5.lean ====
/-
  Layer 2's normalization, as one array.  The kernel sweeps ten row tiles of 5000 rows and normalizes each tile's
  rows on their own.  A row's normalization reads that row only, so entry (r, c) of tile t — row 5000·t + r of the
  array, normalized, at column c — is entry (5000·t + r, c) of the array normalized row by row all at once: the tiles
  are restrictions of one whole-array function, and they cover the array.
-/
import proofs.«134028_j33440615366817_1_alg».proof.Proof.Gen.KernelIdeal.Frame
import proofs.«134028_j33440615366817_1_alg».proof.Proof.PayNorm
import proofs.«134028_j33440615366817_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.RegionNorm5

open Cert.KernelIdeal Cert.KernelIdeal.Gen Idealize.ShloMosaic.ValueIdx Cert.GcnSpec Cert.LibRowNorm

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: both windows sit at block (t, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- Row r of tile t is row 5000·t + r of the array. -/
def row (t : Fin cfg5.N) (r : Fin 5000) : Fin 50000 :=
  ⟨t.val * 5000 + r.val, by have := t.isLt; have hN : cfg5.N = 10 := N_5; have := r.isLt; omega⟩

/-- The input window's block at point t, at (r, k), is the input array at (5000·t + r, k). -/
theorem blk0_read (c : Dev nD) (t : Fin cfg5.N) (r : Fin 5000) (k : Fin 64) :
    (iblk5 V c 0 t : Vec Ideal S5000x64 .f32) (ix2 r k) = (V c main_v34 : S50000x64.Idx → Elt Ideal .f32) (ix2 (row t r) k) := by
  obtain ⟨e0, e1, e2, e3⟩ := idx_facts t
  unfold iblk5
  rw [View.read_apply]
  show (V c main_v34 : S50000x64.Idx → Elt Ideal .f32) _ = _
  refine congrArg _ (funext fun a => Fin.ext ?_)
  match a with
  | ⟨0, _⟩ => show win5_0.index t (0 : Fin 2) * 5000 + 1 * r.val = t.val * 5000 + r.val; rw [e0]; omega
  | ⟨1, _⟩ => show win5_0.index t (1 : Fin 2) * 64 + 1 * k.val = k.val; rw [e1]; omega

/-- Entry (r, q) of the output's block at point t sits at (5000·t + r, q) of the array. -/
theorem emb1 (t : Fin cfg5.N) (r : Fin 5000) (q : Fin 64) :
    ((cfg5.win 1).blk t).view.emb (ix2 r q) = (ix2 (row t r) q : S50000x64.Idx) := by
  obtain ⟨e0, e1, e2, e3⟩ := idx_facts t
  refine funext fun a => Fin.ext ?_
  match a with
  | ⟨0, _⟩ => show win5_1.index t (0 : Fin 2) * 5000 + 1 * r.val = t.val * 5000 + r.val; rw [e2]; omega
  | ⟨1, _⟩ => show win5_1.index t (1 : Fin 2) * 64 + 1 * q.val = q.val; rw [e3]; omega

/-- What point t writes back is block t of the input array normalized row by row. -/
theorem flushed_eq (c : Dev nD) (t : Fin cfg5.N) :
    (dat5 V c).flushed 1 t = ((cfg5.win 1).blk t).view.read (Elt Ideal) (normArr (M := 50000) (N := 64) 0x42800000#32 0x3727C5AC#32 (V c main_v34)) := by
  show (cfg5.win 1).cut (grid5.coords t) ((dat5 V c).after 1 t) = _
  rw [after5_1]
  unfold out5_1
  rw [View.canon_unit_zero hz]
  simp only [View.ld_unit_zero (S := S5000x64) hz]
  funext j
  obtain ⟨r, q, rfl⟩ : ∃ (r : Fin 5000) (q : Fin 64), j = ix2 r q := ⟨j 0, j 1, eq_ix2 (n0 := 5000) (n1 := 64) j⟩
  show k5_pay1 (iblk5 V c 0 t) (ix2 r q) = normArr (M := 50000) (N := 64) 0x42800000#32 0x3727C5AC#32 (V c main_v34) (((cfg5.win 1).blk t).view.emb (ix2 r q))
  refine (Cert.KernelIdeal.PayNorm.pay5_apply (iblk5 V c 0 t) r q).trans ?_
  rw [emb1 t r q, normArr_apply]
  refine congrArg (fun f => lnRow 0x42800000#32 0x3727C5AC#32 f q) (funext fun k => ?_)
  exact blk0_read V c t r k

/-- An index of the array is in point t's block iff each coordinate is in the block's range on its axis. -/
theorem mem_blk (t : Fin cfg5.N) (i : S50000x64.Idx) :
    i ∈ ((cfg5.win 1).blk t).view.set ↔ ∀ a : Fin 2, win5_1.index t a * S5000x64.size a ≤ (i a).val ∧ (i a).val < win5_1.index t a * S5000x64.size a + S5000x64.size a := by
  show i ∈ ((View.whole main_v35).slice (win5_1.rect t)).set ↔ _
  rw [View.set_slice_whole, Rect.mem_set_unit]
  exact Iff.rfl

/-- Row i₀ lies in the block of point i₀ / 5000: the ten blocks cover the array. -/
theorem cover (i : S50000x64.Idx) :
    ∃ t : Fin cfg5.N, (cfg5.win 1).flush t = true ∧ i ∈ ((cfg5.win 1).blk t).view.set := by
  have hi0 : (i 0).val < 50000 := idx2_lt0 i
  have hi1 : (i 1).val < 64 := idx2_lt1 i
  have hN : cfg5.N = 10 := N_5
  obtain ⟨t, ht⟩ : ∃ t : Fin cfg5.N, t.val = (i 0).val / 5000 := ⟨⟨(i 0).val / 5000, by omega⟩, rfl⟩
  obtain ⟨e0, e1, e2, e3⟩ := idx_facts t
  refine ⟨t, flush5_1 t, ?_⟩
  rw [mem_blk]
  intro a
  match a with
  | ⟨0, _⟩ => show win5_1.index t (0 : Fin 2) * 5000 ≤ (i 0).val ∧ (i 0).val < win5_1.index t (0 : Fin 2) * 5000 + 5000; rw [e2]; omega
  | ⟨1, _⟩ => show win5_1.index t (1 : Fin 2) * 64 ≤ (i 1).val ∧ (i 1).val < win5_1.index t (1 : Fin 2) * 64 + 64; rw [e3]; omega

/-- The normalized array after the region: the input array the region finds, normalized row by row. -/
theorem final (c : Dev nD) : (dat5 V c).arrAt 1 cfg5.N = normArr (M := 50000) (N := 64) 0x42800000#32 0x3727C5AC#32 (V c main_v34) :=
  (dat5 V c).arrAt_eq_of_cover 1 (normArr (M := 50000) (N := 64) 0x42800000#32 0x3727C5AC#32 (V c main_v34)) (fun t _ => flushed_eq V c t) cover

end Cert.KernelIdeal.RegionNorm5

end
-- ==== Proof.RefStages.lean ====
/-
  The reference's stages as the layer's whole-array functions.  Each `dot_general` is the matrix product entry by
  entry; each layer-normalization stretch (a host sum from zero, divisions by the row length, a subtraction, a square,
  an rsqrt, a multiplication, and in the first two layers a maximum with zero) is the rows normalized one by one.
  The gather / segment-sum stretch between them is left as it is: it is the same operations in both programs.
-/
import proofs.«134028_j33440615366817_1_alg».proof.Proof.RefRead
import proofs.«134028_j33440615366817_1_alg».proof.Proof.LibPlainDot
import proofs.«134028_j33440615366817_1_alg».proof.Proof.LibRowNorm
import proofs.«134028_j33440615366817_1_alg».proof.Proof.Spec

noncomputable section

namespace Cert.ReferenceIdeal.Stages

open Cert.ReferenceIdeal Cert.ReferenceIdeal.Gen Cert.ReferenceIdeal.ReadP Idealize.ShloMosaic Idealize.ShloMosaic.ValueIdx
open Cert.GcnSpec Cert.LibRowNorm

/-! ## The three products -/

theorem dot0 (x0 : (⟨S50000x128, .f32⟩ : BufTy).Contents (Elt Ideal)) (x1 : (⟨S128x128, .f32⟩ : BufTy).Contents (Elt Ideal)) :
    val_main_v0 (F := Ideal) x0 x1 = dotArr (M := 50000) (K := 128) (N := 128) x0 x1 := by
  funext i
  obtain ⟨r, c, rfl⟩ : ∃ (r : Fin 50000) (c : Fin 128), i = ix2 r c := ⟨i 0, i 1, eq_ix2 i⟩
  unfold val_main_v0
  exact Cert.LibPlainDot.dotGeneral_apply (M := 50000) (K := 128) (N := 128) dot_S50000x128_S128x128_S50000x128_1_0_0_1_n_n
    rfl rfl rfl rfl lhs_main_v0_0 rhs_main_v0_1 none .single x0 x1 r c

theorem dot1 (x0 : (⟨S50000x128, .f32⟩ : BufTy).Contents (Elt Ideal)) (x1 x2 : (⟨S128x128, .f32⟩ : BufTy).Contents (Elt Ideal)) (x5 x6 : (⟨S800000, .i32⟩ : BufTy).Contents (Elt Ideal)) :
    val_main_v30 (F := Ideal) x0 x1 x2 x5 x6 = dotArr (M := 50000) (K := 128) (N := 128) (val_main_v29 (F := Ideal) x0 x1 x5 x6) x2 := by
  funext i
  obtain ⟨r, c, rfl⟩ : ∃ (r : Fin 50000) (c : Fin 128), i = ix2 r c := ⟨i 0, i 1, eq_ix2 i⟩
  unfold val_main_v30
  generalize val_main_v29 (F := Ideal) x0 x1 x5 x6 = y
  exact Cert.LibPlainDot.dotGeneral_apply (M := 50000) (K := 128) (N := 128) dot_S50000x128_S128x128_S50000x128_1_0_0_1_n_n
    rfl rfl rfl rfl lhs_main_v0_0 rhs_main_v0_1 none .single y x2 r c

theorem dot2 (x0 : (⟨S50000x128, .f32⟩ : BufTy).Contents (Elt Ideal)) (x1 x2 : (⟨S128x128, .f32⟩ : BufTy).Contents (Elt Ideal)) (x3 : (⟨S128x64, .f32⟩ : BufTy).Contents (Elt Ideal)) (x5 x6 : (⟨S800000, .i32⟩ : BufTy).Contents (Elt Ideal)) :
    val_main_v60 (F := Ideal) x0 x1 x2 x3 x5 x6 = dotArr (M := 50000) (K := 128) (N := 64) (val_main_v59 (F := Ideal) x0 x1 x2 x5 x6) x3 := by
  funext i
  obtain ⟨r, c, rfl⟩ : ∃ (r : Fin 50000) (c : Fin 64), i = ix2 r c := ⟨i 0, i 1, eq_ix2 i⟩
  unfold val_main_v60
  generalize val_main_v59 (F := Ideal) x0 x1 x2 x5 x6 = y
  exact Cert.LibPlainDot.dotGeneral_apply (M := 50000) (K := 128) (N := 64) dot_S50000x128_S128x64_S50000x64_1_0_0_1_n_n
    rfl rfl rfl rfl lhs_main_v60_0 rhs_main_v60_1 none .single y x3 r c

/-! ## The three normalizations -/

/-- The host's normalization stretch over 128 columns, with the maximum, is the rows normalized one by one. -/
theorem hostNormRelu128 (y : (⟨S50000x128, .f32⟩ : BufTy).Contents (Elt Ideal)) :
    hNormRelu (a := 50000) (n := 128) 0x43000000#32 0x3727C5AC#32 reducesTo_S50000x128_S50000_d1 h_S_ bcast_S50000_S50000x1_0
        bcast_S_S50000x1 bcast_S50000x1_S50000x128_0_1 bcast_S_S50000x128 y
      = normReluArr (M := 50000) (N := 128) 0x43000000#32 0x3727C5AC#32 y := by
  funext i
  obtain ⟨r, c, rfl⟩ : ∃ (r : Fin 50000) (c : Fin 128), i = ix2 r c := ⟨i 0, i 1, eq_ix2 i⟩
  exact hNormRelu_apply (a := 50000) (n := 128) 0x43000000#32 0x3727C5AC#32 reducesTo_S50000x128_S50000_d1 (by decide) h_S_
    bcast_S50000_S50000x1_0 bcast_S_S50000x1 bcast_S50000x1_S50000x128_0_1 bcast_S_S50000x128 y r c

/-- The host's normalization stretch over 64 columns, no maximum. -/
theorem hostNorm64 (y : (⟨S50000x64, .f32⟩ : BufTy).Contents (Elt Ideal)) :
    hNorm (a := 50000) (n := 64) 0x42800000#32 0x3727C5AC#32 reducesTo_S50000x64_S50000_d1 h_S_ bcast_S50000_S50000x1_0
        bcast_S_S50000x1 bcast_S50000x1_S50000x64_0_1 y
      = normArr (M := 50000) (N := 64) 0x42800000#32 0x3727C5AC#32 y := by
  funext i
  obtain ⟨r, c, rfl⟩ : ∃ (r : Fin 50000) (c : Fin 64), i = ix2 r c := ⟨i 0, i 1, eq_ix2 i⟩
  exact hNorm_apply (a := 50000) (n := 64) 0x42800000#32 0x3727C5AC#32 reducesTo_S50000x64_S50000_d1 (by decide) h_S_
    bcast_S50000_S50000x1_0 bcast_S_S50000x1 bcast_S50000x1_S50000x64_0_1 y r c

theorem norm0 (x0 : (⟨S50000x128, .f32⟩ : BufTy).Contents (Elt Ideal)) (x1 : (⟨S128x128, .f32⟩ : BufTy).Contents (Elt Ideal)) (x5 x6 : (⟨S800000, .i32⟩ : BufTy).Contents (Elt Ideal)) :
    val_main_v29 (F := Ideal) x0 x1 x5 x6
      = normReluArr (M := 50000) (N := 128) 0x43000000#32 0x3727C5AC#32 (val_main_v10 (F := Ideal) x0 x1 x5 x6) :=
  (show val_main_v29 (F := Ideal) x0 x1 x5 x6
      = hNormRelu (a := 50000) (n := 128) 0x43000000#32 0x3727C5AC#32 reducesTo_S50000x128_S50000_d1 h_S_ bcast_S50000_S50000x1_0
          bcast_S_S50000x1 bcast_S50000x1_S50000x128_0_1 bcast_S_S50000x128 (val_main_v10 (F := Ideal) x0 x1 x5 x6) from rfl).trans
    (hostNormRelu128 _)

theorem norm1 (x0 : (⟨S50000x128, .f32⟩ : BufTy).Contents (Elt Ideal)) (x1 x2 : (⟨S128x128, .f32⟩ : BufTy).Contents (Elt Ideal)) (x5 x6 : (⟨S800000, .i32⟩ : BufTy).Contents (Elt Ideal)) :
    val_main_v59 (F := Ideal) x0 x1 x2 x5 x6
      = normReluArr (M := 50000) (N := 128) 0x43000000#32 0x3727C5AC#32 (val_main_v40 (F := Ideal) x0 x1 x2 x5 x6) :=
  (show val_main_v59 (F := Ideal) x0 x1 x2 x5 x6
      = hNormRelu (a := 50000) (n := 128) 0x43000000#32 0x3727C5AC#32 reducesTo_S50000x128_S50000_d1 h_S_ bcast_S50000_S50000x1_0
          bcast_S_S50000x1 bcast_S50000x1_S50000x128_0_1 bcast_S_S50000x128 (val_main_v40 (F := Ideal) x0 x1 x2 x5 x6) from rfl).trans
    (hostNormRelu128 _)

theorem norm2 (x0 : (⟨S50000x128, .f32⟩ : BufTy).Contents (Elt Ideal)) (x1 x2 : (⟨S128x128, .f32⟩ : BufTy).Contents (Elt Ideal)) (x3 : (⟨S128x64, .f32⟩ : BufTy).Contents (Elt Ideal)) (x5 x6 : (⟨S800000, .i32⟩ : BufTy).Contents (Elt Ideal)) :
    val_main_v88 (F := Ideal) x0 x1 x2 x3 x5 x6
      = normArr (M := 50000) (N := 64) 0x42800000#32 0x3727C5AC#32 (val_main_v70 (F := Ideal) x0 x1 x2 x3 x5 x6) :=
  (show val_main_v88 (F := Ideal) x0 x1 x2 x3 x5 x6
      = hNorm (a := 50000) (n := 64) 0x42800000#32 0x3727C5AC#32 reducesTo_S50000x64_S50000_d1 h_S_ bcast_S50000_S50000x1_0
          bcast_S_S50000x1 bcast_S50000x1_S50000x64_0_1 (val_main_v70 (F := Ideal) x0 x1 x2 x3 x5 x6) from rfl).trans
    (hostNorm64 _)

end Cert.ReferenceIdeal.Stages

end
-- ==== Proof.KernelChain.lean ====
/-
  The idealized kernel program's result, followed through @main.  The program is six kernel regions with three
  stretches of host operations between them: product, [gather and segment-sum], normalization — three times.  At each
  boundary one buffer carries the layer's value, and it is the reference's value at the same stage:
    * after a product region, the product of the buffer before it with the layer's weights (row tiles of one product);
    * after a host stretch, the same gather and segment-sum the reference applies, of equal operands;
    * after a normalization region, the rows normalized (row tiles of one row-by-row normalization).
  The weights and the two edge-index arrays are read along the way from buffers no region and no host operation writes,
  so they still hold what was launched.  Nine steps, each resting on the one before.
-/
import proofs.«134028_j33440615366817_1_alg».proof.Proof.Gen.KernelIdeal.Frame
import proofs.«134028_j33440615366817_1_alg».proof.Proof.RegionDot0
import proofs.«134028_j33440615366817_1_alg».proof.Proof.RegionDot2
import proofs.«134028_j33440615366817_1_alg».proof.Proof.RegionDot4
import proofs.«134028_j33440615366817_1_alg».proof.Proof.RegionNorm1
import proofs.«134028_j33440615366817_1_alg».proof.Proof.RegionNorm3
import proofs.«134028_j33440615366817_1_alg».proof.Proof.RegionNorm5
import proofs.«134028_j33440615366817_1_alg».proof.Proof.RefStages
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.GcnSpec

variable (m : (ℓ : Loc nD τ sig) → Buf (Elt Ideal) ℓ) (ρ : Dev nD → PrngReg)

/-! ## Buffers nothing has written yet still hold the launch contents -/

theorem k1_arg5 (c : Dev nD) : W1 m ρ c (Proc.devRef .tc main_arg5) = m ((c : Thread nD τ).loc main_arg5) :=
  W1_of_ne m ρ c main_arg5 (by decide)
theorem k1_arg6 (c : Dev nD) : W1 m ρ c (Proc.devRef .tc main_arg6) = m ((c : Thread nD τ).loc main_arg6) :=
  W1_of_ne m ρ c main_arg6 (by decide)

theorem k3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := W1_of_ne m ρ c main_arg2 (by decide)

theorem k4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := W1_of_ne m ρ c main_arg5 (by decide)

theorem k4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := W1_of_ne m ρ c main_arg6 (by decide)

theorem k4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := W1_of_ne m ρ c main_arg3 (by decide)

theorem k6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := k4_arg3 m ρ c

theorem k7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := k4_arg5 m ρ c

theorem k7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := k4_arg6 m ρ c

/-! ## Layer 0 -/

/-- After region 0 the product buffer holds the reference's first product. -/
theorem e0 (c : Dev nD) : W1 m ρ c (Proc.devRef .tc main_v0) = Cert.ReferenceIdeal.ReadP.val_main_v0 (F := Ideal) (m ((c : Thread nD τ).loc main_arg0)) (m ((c : Thread nD τ).loc main_arg1)) :=
  (W1_arr m ρ c 2).trans ((Cert.KernelIdeal.RegionDot0.final (V0 m ρ) c).trans (Cert.ReferenceIdeal.Stages.dot0 _ _).symm)

/-- After the first host stretch the aggregated buffer holds the reference's first segment sum. -/
theorem e1 (c : Dev nD) : W2 m ρ c (Proc.devRef .tc main_v10)
    = Cert.ReferenceIdeal.ReadP.val_main_v10 (F := Ideal) (m ((c : Thread nD τ).loc main_arg0)) (m ((c : Thread nD τ).loc main_arg1)) (m ((c : Thread nD τ).loc main_arg5)) (m ((c : Thread nD τ).loc main_arg6)) := by
  show StableHlo.after hostOps1 (W1 m ρ c) (Proc.devRef .tc main_v10) = _
  after_results
  rw [e0 m ρ c, k1_arg5 m ρ c, k1_arg6 m ρ c]
  rfl

/-- After region 1 the normalized buffer holds the reference's first normalized, rectified array. -/
theorem e2 (c : Dev nD) : W3 m ρ c (Proc.devRef .tc main_v11)
    = Cert.ReferenceIdeal.ReadP.val_main_v29 (F := Ideal) (m ((c : Thread nD τ).loc main_arg0)) (m ((c : Thread nD τ).loc main_arg1)) (m ((c : Thread nD τ).loc main_arg5)) (m ((c : Thread nD τ).loc main_arg6)) := by
  refine (W3_arr m ρ c 1).trans ((Cert.KernelIdeal.RegionNorm1.final (V2 m ρ) c).trans ?_)
  rw [show V2 m ρ c main_v10 = W2 m ρ c (Proc.devRef .tc main_v10) from rfl, e1 m ρ c]
  exact (Cert.ReferenceIdeal.Stages.norm0 _ _ _ _).symm

/-! ## Layer 1 -/

theorem e3 (c : Dev nD) : W4 m ρ c (Proc.devRef .tc main_v12)
    = Cert.ReferenceIdeal.ReadP.val_main_v30 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (W4_arr m ρ c 2).trans ((Cert.KernelIdeal.RegionDot2.final (V3 m ρ) c).trans ?_)
  rw [show V3 m ρ c main_v11 = W3 m ρ c (Proc.devRef .tc main_v11) from rfl, e2 m ρ c,
    show V3 m ρ c main_arg2 = W3 m ρ c (Proc.devRef .tc main_arg2) from rfl, k3_arg2 m ρ c]
  exact (Cert.ReferenceIdeal.Stages.dot1 _ _ _ _ _).symm

theorem e4 (c : Dev nD) : W5 m ρ c (Proc.devRef .tc main_v22)
    = Cert.ReferenceIdeal.ReadP.val_main_v40 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  show StableHlo.after hostOps3 (W4 m ρ c) (Proc.devRef .tc main_v22) = _
  after_results
  rw [e3 m ρ c, k4_arg5 m ρ c, k4_arg6 m ρ c]
  rfl

theorem e5 (c : Dev nD) : W6 m ρ c (Proc.devRef .tc main_v23)
    = Cert.ReferenceIdeal.ReadP.val_main_v59 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (W6_arr m ρ c 1).trans ((Cert.KernelIdeal.RegionNorm3.final (V5 m ρ) c).trans ?_)
  rw [show V5 m ρ c main_v22 = W5 m ρ c (Proc.devRef .tc main_v22) from rfl, e4 m ρ c]
  exact (Cert.ReferenceIdeal.Stages.norm1 _ _ _ _ _).symm

/-! ## Layer 2 -/

theorem e6 (c : Dev nD) : W7 m ρ c (Proc.devRef .tc main_v24)
    = Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (W7_arr m ρ c 2).trans ((Cert.KernelIdeal.RegionDot4.final (V6 m ρ) c).trans ?_)
  rw [show V6 m ρ c main_v23 = W6 m ρ c (Proc.devRef .tc main_v23) from rfl, e5 m ρ c,
    show V6 m ρ c main_arg3 = W6 m ρ c (Proc.devRef .tc main_arg3) from rfl, k6_arg3 m ρ c]
  exact (Cert.ReferenceIdeal.Stages.dot2 _ _ _ _ _ _).symm

theorem e7 (c : Dev nD) : W8 m ρ c (Proc.devRef .tc main_v34)
    = Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  show StableHlo.after hostOps5 (W7 m ρ c) (Proc.devRef .tc main_v34) = _
  after_results
  rw [e6 m ρ c, k7_arg5 m ρ c, k7_arg6 m ρ c]
  rfl

/-- After the last region the result buffer holds the reference's result. -/
theorem e8 (c : Dev nD) : W9 m ρ c (Proc.devRef .tc main_v35)
    = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (W9_arr m ρ c 1).trans ((Cert.KernelIdeal.RegionNorm5.final (V8 m ρ) c).trans ?_)
  rw [show V8 m ρ c main_v34 = W8 m ρ c (Proc.devRef .tc main_v34) from rfl, e7 m ρ c]
  exact (Cert.ReferenceIdeal.Stages.norm2 _ _ _ _ _ _).symm

end Cert.KernelIdeal.Chain

end
-- ==== Proof.lean ====
/-
  A three-layer graph convolution: per layer a matrix product with the layer's weights, a gather of the product's
  rows along the edges' sources summed into the edges' destinations, and a layer normalization of every row (with a
  maximum against zero after the first two).  The kernel program computes the products and the normalizations in row
  tiles of 5000 rows, ten tiles each, and leaves the gather and the segment sum to the same host operations the
  reference uses; the reference computes everything on whole arrays.

  On the extended reals the two agree entry by entry, with no algebra beyond reading each operation at an entry:
  a product's entry (r, c) is row r against column c, and a normalized entry (r, c) is a function of row r alone, so a
  row tile processed on its own holds exactly the whole-array result's rows (Spec.lean, LibRowNorm.lean; the kernel's
  side region by region in RegionDot*.lean / RegionNorm*.lean, the reference's in RefStages.lean); rounding the
  product's operands to bf16 is the identity here; the divisions by the row length and the constant ε are the same
  words on both sides.  KernelChain.lean follows the value through the kernel program's nine segments and meets the
  reference's stage after each; KernelRun.lean is the program's run with the result buffer named.  No precondition
  is used: nothing here needs the inputs finite.
-/
import proofs.«134028_j33440615366817_1_alg».proof.Defs
import proofs.«134028_j33440615366817_1_alg».proof.Proof.Gen.Kernel
import proofs.«134028_j33440615366817_1_alg».proof.Proof.Gen.Kernel.Skeleton
import proofs.«134028_j33440615366817_1_alg».proof.Proof.Gen.Kernel.Launch
import proofs.«134028_j33440615366817_1_alg».proof.Proof.Gen.Kernel.Points
import proofs.«134028_j33440615366817_1_alg».proof.Proof.Gen.Kernel.Frame
import proofs.«134028_j33440615366817_1_alg».proof.Proof.Gen.KernelIdeal
import proofs.«134028_j33440615366817_1_alg».proof.Proof.Gen.KernelIdeal.Skeleton
import proofs.«134028_j33440615366817_1_alg».proof.Proof.Gen.KernelIdeal.Launch
import proofs.«134028_j33440615366817_1_alg».proof.Proof.Gen.KernelIdeal.Points
import proofs.«134028_j33440615366817_1_alg».proof.Proof.Gen.KernelIdeal.Frame
import proofs.«134028_j33440615366817_1_alg».proof.Proof.Gen.ReferenceIdeal
import proofs.«134028_j33440615366817_1_alg».proof.Proof.Gen.Pre_finite_inputs
import proofs.«134028_j33440615366817_1_alg».proof.Proof.RefRun
import proofs.«134028_j33440615366817_1_alg».proof.Proof.RefRead
import proofs.«134028_j33440615366817_1_alg».proof.Proof.KernelRun
import proofs.«134028_j33440615366817_1_alg».proof.Proof.KernelChain
import Idealize.ShloMosaic.Adequacy
import Idealize.ShloMosaic.Init

noncomputable section

namespace Cert.Proof

open Idealize.ShloMosaic Idealize.SL.Sem

/-- The word-level kernel program terminates, nothing faulting, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the same result: the kernel program's result buffer holds the reference's last stage of
    the kernel's arguments (the chain of nine steps), the reference's holds it of its own, and the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v35),
    Cert.KernelIdeal.Hand.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v88_eq, h0, h1, h2, h3, h5, h6]
  exact (Cert.KernelIdeal.Chain.e8 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
